-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x28x28 : Shape := ⟨4, ![4096, 1, 28, 28]⟩
abbrev S4x32 : Shape := ⟨2, ![4, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S4096x1x28x28 : S_.BroadcastsInDim S4096x1x28x28 (![] : Fin 0 → Fin S4096x1x28x28.rank)
  reducesTo_S4096x1x28x28_S_d0_1_2_3 : S4096x1x28x28.ReducesTo [0, 1, 2, 3] S_
  h_S_ : 0 < S_.numel
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S32x10 1) : IVec S_ 1 :=
  let main_c_5 : IVec S_ 1 := constantI S_ 1 1#1
  let main_v17 : IVec S_ 1 := (fun x v => Host.reduce IntOp.andi x v reducesTo_S32x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S4096x1x28x28 .f32) (main_arg1 : FVec F S4x32 .f32) (main_arg2 : FVec F S32 .f32) (main_arg3 : FVec F S32x10 .f32) (main_arg4 : FVec F S10 .f32) : IVec S_ 1 :=
  let main_v0 : FVec F S4096x1x28x28 .f32 := Host.absf main_arg0
  let main_cst : FVec F S_ .f32 := constant S_ .f32 0x7F800000#32
  let main_v1 : FVec F S4096x1x28x28 .f32 := broadcastInDim S4096x1x28x28 ![] bcast_S_S4096x1x28x28 main_cst
  let main_v2 : IVec S4096x1x28x28 1 := cmpf .olt main_v0 main_v1
  let main_c : IVec S_ 1 := constantI S_ 1 1#1
  let main_v3 : IVec S_ 1 := (fun x v => Host.reduce IntOp.andi x v reducesTo_S4096x1x28x28_S_d0_1_2_3 h_S_) main_v2 main_c
  let main_v4 : FVec F S4x32 .f32 := Host.absf main_arg1
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x10 .f32 := Host.absf main_arg3
  let main_cst_4 : FVec F S_ .f32 := constant S_ .f32 0x7F800000#32
  let main_v15 : FVec F S32x10 .f32 := broadcastInDim S32x10 ![] bcast_S_S32x10 main_cst_4
  let main_v16 : IVec S32x10 1 := cmpf .olt main_v14 main_v15
  fn_part1 (F := F) main_arg4 main_v13 main_v16
-- ==== Kernel.lean ====
abbrev S4096x1x28x28 : Shape := ⟨4, ![4096, 1, 28, 28]⟩
abbrev S4x32 : Shape := ⟨2, ![4, 32]⟩
abbrev S32 : Shape := ⟨1, ![32]⟩
abbrev S32x10 : Shape := ⟨2, ![32, 10]⟩
abbrev S10 : Shape := ⟨1, ![10]⟩
abbrev S4096x28x28 : Shape := ⟨3, ![4096, 28, 28]⟩
abbrev S4096x14x2x14x2 : Shape := ⟨5, ![4096, 14, 2, 14, 2]⟩
abbrev S4096x14x14x2x2 : Shape := ⟨5, ![4096, 14, 14, 2, 2]⟩
abbrev S4096x196x4 : Shape := ⟨3, ![4096, 196, 4]⟩
abbrev S4096x4x196 : Shape := ⟨3, ![4096, 4, 196]⟩
abbrev S196x196 : Shape := ⟨2, ![196, 196]⟩
abbrev S_ : Shape := ⟨0, ![]⟩
abbrev S4096x4 : Shape := ⟨2, ![4096, 4]⟩
abbrev S4096x196x196 : Shape := ⟨3, ![4096, 196, 196]⟩
abbrev S32x4x196 : Shape := ⟨3, ![32, 4, 196]⟩
abbrev S32x4 : Shape := ⟨2, ![32, 4]⟩
abbrev S32x196x196 : Shape := ⟨3, ![32, 196, 196]⟩
abbrev S32x196 : Shape := ⟨2, ![32, 196]⟩
abbrev S32x1x196 : Shape := ⟨3, ![32, 1, 196]⟩
abbrev S1x196x196 : Shape := ⟨3, ![1, 196, 196]⟩
abbrev S4096x32 : Shape := ⟨2, ![4096, 32]⟩
abbrev S1x32 : Shape := ⟨2, ![1, 32]⟩
abbrev S4096x10 : Shape := ⟨2, ![4096, 10]⟩
abbrev S1x10 : Shape := ⟨2, ![1, 10]⟩

abbrev nBuf : Space → Nat
  | .hbm => 30
  | .vmem => 7
  | .smem => 0
  | _ => 0

abbrev bufTy : (tb : Table) → Fin (tcTables nBuf tb) → BufTy
  | .hbm, ⟨0, _⟩ => ⟨S4096x1x28x28, .f32⟩
  | .hbm, ⟨1, _⟩ => ⟨S4x32, .f32⟩
  | .hbm, ⟨2, _⟩ => ⟨S32, .f32⟩
  | .hbm, ⟨3, _⟩ => ⟨S32x10, .f32⟩
  | .hbm, ⟨4, _⟩ => ⟨S10, .f32⟩
  | .hbm, ⟨5, _⟩ => ⟨S4096x28x28, .f32⟩
  | .hbm, ⟨6, _⟩ => ⟨S4096x14x2x14x2, .f32⟩
  | .hbm, ⟨7, _⟩ => ⟨S4096x14x14x2x2, .f32⟩
  | .hbm, ⟨8, _⟩ => ⟨S4096x196x4, .f32⟩
  | .hbm, ⟨9, _⟩ => ⟨S4096x4x196, .f32⟩
  | .hbm, ⟨10, _⟩ => ⟨S196x196, .i32⟩
  | .hbm, ⟨11, _⟩ => ⟨S196x196, .i32⟩
  | .hbm, ⟨12, _⟩ => ⟨S_, .i32⟩
  | .hbm, ⟨13, _⟩ => ⟨S196x196, .i32⟩
  | .hbm, ⟨14, _⟩ => ⟨S196x196, .i32⟩
  | .hbm, ⟨15, _⟩ => ⟨S196x196, .i1⟩
  | .hbm, ⟨16, _⟩ => ⟨S196x196, .f32⟩
  | .hbm, ⟨17, _⟩ => ⟨S_, .f32⟩
  | .hbm, ⟨18, _⟩ => ⟨S196x196, .f32⟩
  | .hbm, ⟨19, _⟩ => ⟨S196x196, .f32⟩
  | .hbm, ⟨20, _⟩ => ⟨S4096x4, .f32⟩
  | .hbm, ⟨21, _⟩ => ⟨S4096x196x196, .f32⟩
  | .hbm, ⟨22, _⟩ => ⟨S4096x32, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x10, .f32⟩
  | .hbm, ⟨27, _⟩ => ⟨S1x10, .f32⟩
  | .hbm, ⟨28, _⟩ => ⟨S4096x10, .f32⟩
  | .hbm, ⟨29, _⟩ => ⟨S4096x10, .f32⟩
  | .local _ .vmem, ⟨0, _⟩ => ⟨S32x4x196, .f32⟩
  | .local _ .vmem, ⟨1, _⟩ => ⟨S32x4x196, .f32⟩
  | .local _ .vmem, ⟨2, _⟩ => ⟨S196x196, .f32⟩
  | .local _ .vmem, ⟨3, _⟩ => ⟨S32x4, .f32⟩
  | .local _ .vmem, ⟨4, _⟩ => ⟨S32x4, .f32⟩
  | .local _ .vmem, ⟨5, _⟩ => ⟨S32x196x196, .f32⟩
  | .local _ .vmem, ⟨6, _⟩ => ⟨S32x196x196, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S196x196 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x196x196 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x1x28x28_S4096x28x28 : S4096x1x28x28.ShapeCasts S4096x28x28
  shapeCasts_S4096x28x28_S4096x14x2x14x2 : S4096x28x28.ShapeCasts S4096x14x2x14x2
  transposes_S4096x14x2x14x2_S4096x14x14x2x2_0_1_3_2_4 : S4096x14x2x14x2.Transposes [0, 1, 3, 2, 4] S4096x14x14x2x2
  shapeCasts_S4096x14x14x2x2_S4096x196x4 : S4096x14x14x2x2.ShapeCasts S4096x196x4
  transposes_S4096x196x4_S4096x4x196_0_2_1 : S4096x196x4.Transposes [0, 2, 1] S4096x4x196
  bcast_S_S196x196 : S_.BroadcastsInDim S196x196 (![] : Fin 0 → Fin S196x196.rank)
  inb_S32x4x196_S32x4x196_0_0_0 : ∀ a, (![0, 0, 0] : Fin 3 → Nat) a + S32x4x196.size a ≤ S32x4x196.size a
  h_S32x4x196 : 0 < S32x4x196.numel
  shapeCasts_S32x4x196_S32x4x196 : S32x4x196.ShapeCasts S32x4x196
  reduces_S32x4x196_S32x196 : S32x4x196.Reduces [1] S32x196
  shapeCasts_S32x196_S32x1x196 : S32x196.ShapeCasts S32x1x196
  broadcasts_S32x1x196_S32x4x196 : S32x1x196.Broadcasts S32x4x196
  natLt_1_32 : 1 < 32
  inb_S196x196_S196x196_0_0 : ∀ a, (![0, 0] : Fin 2 → Nat) a + S196x196.size a ≤ S196x196.size a
  h_S196x196 : 0 < S196x196.numel
  shapeCasts_S196x196_S196x196 : S196x196.ShapeCasts S196x196
  shapeCasts_S196x196_S1x196x196 : S196x196.ShapeCasts S1x196x196
  broadcasts_S1x196x196_S32x196x196 : S1x196x196.Broadcasts S32x196x196
  inb_S32x196x196_S32x196x196_0_0_0 : ∀ a, (![0, 0, 0] : Fin 3 → Nat) a + S32x196x196.size a ≤ S32x196x196.size a
  h_S32x196x196 : 0 < S32x196x196.numel
  reduces_S32x4x196_S32x4 : S32x4x196.Reduces [2] S32x4
  inb_S32x4_S32x4_0_0 : ∀ a, (![0, 0] : Fin 2 → Nat) a + S32x4.size a ≤ S32x4.size a
  h_S32x4 : 0 < S32x4.numel
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S32x4x196_S32x4x196_S32x196x196_1_1_2_2_0_0_wf : DotDims.WF S32x4x196 S32x4x196 S32x196x196 [1] [1] [2] [2] [0] [0]
  dot_S4096x4_S4x32_S4096x32_1_0_0_1_n_n_wf : DotDims.WF S4096x4 S4x32 S4096x32 [1] [0] [0] [1] [] []
  dot_S4096x32_S32x10_S4096x10_1_0_0_1_n_n_wf : DotDims.WF S4096x32 S32x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4x196.size a ≤ S4096x4x196.size a
  hwx0_0 : ∀ i : grid0.Coords, EltTy.bits .f32 = 32 ∨ (Rect.block (s := S4096x4x196) S32x4x196.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S196x196.size a ≤ S196x196.size a
  hwx0_1 : ∀ i : grid0.Coords, EltTy.bits .f32 = 32 ∨ (Rect.block (s := S196x196) S196x196.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4.size a ≤ S4096x4.size a
  hwx0_2 : ∀ i : grid0.Coords, EltTy.bits .f32 = 32 ∨ (Rect.block (s := S4096x4) S32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x196x196.size a ≤ S4096x196x196.size a
  hwx0_3 : ∀ i : grid0.Coords, EltTy.bits .f32 = 32 ∨ (Rect.block (s := S4096x196x196) S32x196x196.size (cc0_transform_3 i) (hinb0_3 i)).WholeWords (EltTy.packing .f32)

variable [Facts₀]

def dot_S32x4x196_S32x4x196_S32x196x196_1_1_2_2_0_0 : DotDims S32x4x196 S32x4x196 S32x196x196 where
  lhsContracting := [1]
  rhsContracting := [1]
  lhsNonContracting := [2]
  rhsNonContracting := [2]
  lhsBatch := [0]
  rhsBatch := [0]
  wf := dot_S32x4x196_S32x4x196_S32x196x196_1_1_2_2_0_0_wf
def dot_S4096x4_S4x32_S4096x32_1_0_0_1_n_n : DotDims S4096x4 S4x32 S4096x32 where
  lhsContracting := [1]
  rhsContracting := [0]
  lhsNonContracting := [0]
  rhsNonContracting := [1]
  lhsBatch := []
  rhsBatch := []
  wf := dot_S4096x4_S4x32_S4096x32_1_0_0_1_n_n_wf
def dot_S4096x32_S32x10_S4096x10_1_0_0_1_n_n : DotDims S4096x32 S32x10 S4096x10 where
  lhsContracting := [1]
  rhsContracting := [0]
  lhsNonContracting := [0]
  rhsNonContracting := [1]
  lhsBatch := []
  rhsBatch := []
  wf := dot_S4096x32_S32x10_S4096x10_1_0_0_1_n_n_wf

abbrev win0_0 : Pipeline.Window sig grid0 :=
  Pipeline.Window.ofSpec (Memref.whole main_v4) S32x4x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S196x196.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S32x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S32x196x196.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1x28x28 : Shape := ⟨4, ![4096, 1, 28, 28]⟩
abbrev S4x32 : Shape := ⟨2, ![4, 32]⟩
abbrev S32 : Shape := ⟨1, ![32]⟩
abbrev S32x10 : Shape := ⟨2, ![32, 10]⟩
abbrev S10 : Shape := ⟨1, ![10]⟩
abbrev S4096x28x28 : Shape := ⟨3, ![4096, 28, 28]⟩
abbrev S4096x14x2x14x2 : Shape := ⟨5, ![4096, 14, 2, 14, 2]⟩
abbrev S4096x14x14x2x2 : Shape := ⟨5, ![4096, 14, 14, 2, 2]⟩
abbrev S4096x196x4 : Shape := ⟨3, ![4096, 196, 4]⟩
abbrev S_ : Shape := ⟨0, ![]⟩
abbrev S4096x196 : Shape := ⟨2, ![4096, 196]⟩
abbrev S4096x196x1 : Shape := ⟨3, ![4096, 196, 1]⟩
abbrev S4096x196x196 : Shape := ⟨3, ![4096, 196, 196]⟩
abbrev S196x196 : Shape := ⟨2, ![196, 196]⟩
abbrev S4096x4 : Shape := ⟨2, ![4096, 4]⟩
abbrev S4096x32 : Shape := ⟨2, ![4096, 32]⟩
abbrev S1x32 : Shape := ⟨2, ![1, 32]⟩
abbrev S4096x10 : Shape := ⟨2, ![4096, 10]⟩
abbrev S1x10 : Shape := ⟨2, ![1, 10]⟩

abbrev nBuf : Space → Nat
  | .hbm => 59
  | .vmem => 0
  | .smem => 0
  | _ => 0

abbrev bufTy : (tb : Table) → Fin (tcTables nBuf tb) → BufTy
  | .hbm, ⟨0, _⟩ => ⟨S4096x1x28x28, .f32⟩
  | .hbm, ⟨1, _⟩ => ⟨S4x32, .f32⟩
  | .hbm, ⟨2, _⟩ => ⟨S32, .f32⟩
  | .hbm, ⟨3, _⟩ => ⟨S32x10, .f32⟩
  | .hbm, ⟨4, _⟩ => ⟨S10, .f32⟩
  | .hbm, ⟨5, _⟩ => ⟨S4096x28x28, .f32⟩
  | .hbm, ⟨6, _⟩ => ⟨S4096x14x2x14x2, .f32⟩
  | .hbm, ⟨7, _⟩ => ⟨S4096x14x14x2x2, .f32⟩
  | .hbm, ⟨8, _⟩ => ⟨S4096x196x4, .f32⟩
  | .hbm, ⟨9, _⟩ => ⟨S4096x196x4, .f32⟩
  | .hbm, ⟨10, _⟩ => ⟨S4096x196x4, .f32⟩
  | .hbm, ⟨11, _⟩ => ⟨S_, .f32⟩
  | .hbm, ⟨12, _⟩ => ⟨S4096x196, .f32⟩
  | .hbm, ⟨13, _⟩ => ⟨S4096x196x1, .f32⟩
  | .hbm, ⟨14, _⟩ => ⟨S4096x196x1, .f32⟩
  | .hbm, ⟨15, _⟩ => ⟨S_, .f32⟩
  | .hbm, ⟨16, _⟩ => ⟨S4096x196x1, .f32⟩
  | .hbm, ⟨17, _⟩ => ⟨S4096x196x1, .f32⟩
  | .hbm, ⟨18, _⟩ => ⟨S4096x196x4, .f32⟩
  | .hbm, ⟨19, _⟩ => ⟨S4096x196x4, .f32⟩
  | .hbm, ⟨20, _⟩ => ⟨S4096x196x196, .f32⟩
  | .hbm, ⟨21, _⟩ => ⟨S4096x196x196, .f32⟩
  | .hbm, ⟨22, _⟩ => ⟨S_, .f32⟩
  | .hbm, ⟨23, _⟩ => ⟨S4096x196x196, .f32⟩
  | .hbm, ⟨24, _⟩ => ⟨S4096x196x196, .i1⟩
  | .hbm, ⟨25, _⟩ => ⟨S_, .f32⟩
  | .hbm, ⟨26, _⟩ => ⟨S4096x196x196, .f32⟩
  | .hbm, ⟨27, _⟩ => ⟨S4096x196x196, .i1⟩
  | .hbm, ⟨28, _⟩ => ⟨S_, .f32⟩
  | .hbm, ⟨29, _⟩ => ⟨S_, .f32⟩
  | .hbm, ⟨30, _⟩ => ⟨S4096x196x196, .f32⟩
  | .hbm, ⟨31, _⟩ => ⟨S4096x196x196, .f32⟩
  | .hbm, ⟨32, _⟩ => ⟨S4096x196x196, .f32⟩
  | .hbm, ⟨33, _⟩ => ⟨S_, .f32⟩
  | .hbm, ⟨34, _⟩ => ⟨S4096x196x196, .f32⟩
  | .hbm, ⟨35, _⟩ => ⟨S4096x196x196, .f32⟩
  | .hbm, ⟨36, _⟩ => ⟨S196x196, .i32⟩
  | .hbm, ⟨37, _⟩ => ⟨S196x196, .i32⟩
  | .hbm, ⟨38, _⟩ => ⟨S_, .i32⟩
  | .hbm, ⟨39, _⟩ => ⟨S196x196, .i32⟩
  | .hbm, ⟨40, _⟩ => ⟨S196x196, .i32⟩
  | .hbm, ⟨41, _⟩ => ⟨S196x196, .i1⟩
  | .hbm, ⟨42, _⟩ => ⟨S_, .f32⟩
  | .hbm, ⟨43, _⟩ => ⟨S4096x196x196, .i1⟩
  | .hbm, ⟨44, _⟩ => ⟨S4096x196x196, .f32⟩
  | .hbm, ⟨45, _⟩ => ⟨S4096x196x196, .f32⟩
  | .hbm, ⟨46, _⟩ => ⟨S_, .f32⟩
  | .hbm, ⟨47, _⟩ => ⟨S4096x4, .f32⟩
  | .hbm, ⟨48, _⟩ => ⟨S_, .f32⟩
  | .hbm, ⟨49, _⟩ => ⟨S4096x4, .f32⟩
  | .hbm, ⟨50, _⟩ => ⟨S4096x4, .f32⟩
  | .hbm, ⟨51, _⟩ => ⟨S4096x32, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S4096x10, .f32⟩
  | .hbm, ⟨56, _⟩ => ⟨S1x10, .f32⟩
  | .hbm, ⟨57, _⟩ => ⟨S4096x10, .f32⟩
  | .hbm, ⟨58, _⟩ => ⟨S4096x10, .f32⟩
  | _, _ => ⟨S4096x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_cst_4 : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_call3_v0 : Ref sig .tc := ⟨.hbm, 43, rfl⟩
abbrev main_call3_v1 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_cst_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]

class Facts₀ : Prop where
  shapeCasts_S4096x1x28x28_S4096x28x28 : S4096x1x28x28.ShapeCasts S4096x28x28
  shapeCasts_S4096x28x28_S4096x14x2x14x2 : S4096x28x28.ShapeCasts S4096x14x2x14x2
  transposes_S4096x14x2x14x2_S4096x14x14x2x2_0_1_3_2_4 : S4096x14x2x14x2.Transposes [0, 1, 3, 2, 4] S4096x14x14x2x2
  shapeCasts_S4096x14x14x2x2_S4096x196x4 : S4096x14x14x2x2.ShapeCasts S4096x196x4
  reducesTo_S4096x196x4_S4096x196_d2 : S4096x196x4.ReducesTo [2] S4096x196
  h_S_ : 0 < S_.numel
  bcast_S4096x196_S4096x196x1_0_1 : S4096x196.BroadcastsInDim S4096x196x1 (![0, 1] : Fin 2 → Fin S4096x196x1.rank)
  bcast_S_S4096x196x1 : S_.BroadcastsInDim S4096x196x1 (![] : Fin 0 → Fin S4096x196x1.rank)
  bcast_S4096x196x1_S4096x196x4_0_1_2 : S4096x196x1.BroadcastsInDim S4096x196x4 (![0, 1, 2] : Fin 3 → Fin S4096x196x4.rank)
  bcast_S_S4096x196x196 : S_.BroadcastsInDim S4096x196x196 (![] : Fin 0 → Fin S4096x196x196.rank)
  bcast_S_S196x196 : S_.BroadcastsInDim S196x196 (![] : Fin 0 → Fin S196x196.rank)
  bcast_S196x196_S4096x196x196_1_2 : S196x196.BroadcastsInDim S4096x196x196 (![1, 2] : Fin 2 → Fin S4096x196x196.rank)
  reducesTo_S4096x196x4_S4096x4_d1 : S4096x196x4.ReducesTo [1] S4096x4
  bcast_S_S4096x4 : S_.BroadcastsInDim S4096x4 (![] : Fin 0 → Fin S4096x4.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S4096x196x4_S4096x196x4_S4096x196x196_2_2_1_1_0_0_wf : DotDims.WF S4096x196x4 S4096x196x4 S4096x196x196 [2] [2] [1] [1] [0] [0]
  dot_S4096x4_S4x32_S4096x32_1_0_0_1_n_n_wf : DotDims.WF S4096x4 S4x32 S4096x32 [1] [0] [0] [1] [] []
  dot_S4096x32_S32x10_S4096x10_1_0_0_1_n_n_wf : DotDims.WF S4096x32 S32x10 S4096x10 [1] [0] [0] [1] [] []

variable [Facts₀]

def dot_S4096x196x4_S4096x196x4_S4096x196x196_2_2_1_1_0_0 : DotDims S4096x196x4 S4096x196x4 S4096x196x196 where
  lhsContracting := [2]
  rhsContracting := [2]
  lhsNonContracting := [1]
  rhsNonContracting := [1]
  lhsBatch := [0]
  rhsBatch := [0]
  wf := dot_S4096x196x4_S4096x196x4_S4096x196x196_2_2_1_1_0_0_wf
def dot_S4096x4_S4x32_S4096x32_1_0_0_1_n_n : DotDims S4096x4 S4x32 S4096x32 where
  lhsContracting := [1]
  rhsContracting := [0]
  lhsNonContracting := [0]
  rhsNonContracting := [1]
  lhsBatch := []
  rhsBatch := []
  wf := dot_S4096x4_S4x32_S4096x32_1_0_0_1_n_n_wf
def dot_S4096x32_S32x10_S4096x10_1_0_0_1_n_n : DotDims S4096x32 S32x10 S4096x10 where
  lhsContracting := [1]
  rhsContracting := [0]
  lhsNonContracting := [0]
  rhsNonContracting := [1]
  lhsBatch := []
  rhsBatch := []
  wf := dot_S4096x32_S32x10_S4096x10_1_0_0_1_n_n_wf

class Facts : Prop extends Facts₀ where

variable [Facts]
-- ==== Proof.Spec.lean ====
/-
  What both programs compute, written once, image by image, at the extended reals.

  One image is 196 patches of 4 pixels, p n d. Its features are c n d = cos (p n d). Each patch's feature vector is
  scaled by its length plus ε, len n = √(Σ_d c n d²) + ε, giving u n d = c n d / len n; the similarity of two patches
  is the squared inner product fid n m = (Σ_d u n d · u m d)². The edge weight of (n, m) is 0 on the diagonal, else 1
  if fid ≥ θ, else 1/2 if fid ≥ 1/2, else 0 (θ the float nearest 0.8). The pooled feature is the mean over the patches,
  pool d = (Σ_n c n d) / 196. The diagonal is marked by the bit "n + 0 = m" on 32-bit words, kept as that bit.
  The whole-array functions read image b of an array P of shape [4096, 196, 4] as the row p n d = P (b, n, d).
-/
import Idealize.ShloMosaic.PureOps.Ideal
import Idealize.ShloMosaic.Lib.ValueIdx

noncomputable section

open scoped BigOperators

namespace Cert.Spec

open Idealize.ShloMosaic Idealize.ShloMosaic.ValueIdx

/-- The feature of pixel d of patch n: its cosine. -/
def feat (p : Fin 196 → Fin 4 → EReal) (n : Fin 196) (d : Fin 4) : EReal := Ideal.cos (p n d)

/-- The length of patch n's feature vector, plus ε. -/
def len (p : Fin 196 → Fin 4 → EReal) (n : Fin 196) : EReal :=
  Ideal.sqrt (∑ d : Fin 4, feat p n d * feat p n d) + Ideal.ofBits .f32 0x2B8CBCCC#32

/-- The scaled feature. -/
def dirn (p : Fin 196 → Fin 4 → EReal) (n : Fin 196) (d : Fin 4) : EReal := Ideal.div (feat p n d) (len p n)

/-- The similarity of patches n and m: the squared inner product of their scaled features. -/
def fid (p : Fin 196 → Fin 4 → EReal) (n m : Fin 196) : EReal :=
  (∑ d : Fin 4, dirn p n d * dirn p m d) * (∑ d : Fin 4, dirn p n d * dirn p m d)

/-- The bit marking the diagonal, as both programs compute it: the row number plus zero compared with the column number. -/
def diag (n m : Fin 196) : BitVec 1 := IntOp.cmpi .eq (IntOp.addi (BitVec.ofNat 32 n.val) 0#32) (BitVec.ofNat 32 m.val)

/-- The edge weight, as the nested choice. -/
def adj (p : Fin 196 → Fin 4 → EReal) (n m : Fin 196) : EReal :=
  Scalar.select (diag n m) (Ideal.ofBits .f32 0x00000000#32)
    (Scalar.select (Ideal.cmp .oge (fid p n m) (Ideal.ofBits .f32 0x3F4CCCCD#32)) (Ideal.ofBits .f32 0x3F800000#32)
      (Scalar.select (Ideal.cmp .oge (fid p n m) (Ideal.ofBits .f32 0x3F000000#32)) (Ideal.ofBits .f32 0x3F000000#32)
        (Ideal.ofBits .f32 0x00000000#32)))

/-- The pooled feature: the mean over the 196 patches. -/
def pool (p : Fin 196 → Fin 4 → EReal) (d : Fin 4) : EReal :=
  Ideal.div (∑ n : Fin 196, feat p n d) (Ideal.ofBits .f32 0x43440000#32)

/-- Image b of a [4096, 196, 4] array. -/
def row (P : (⟨3, ![4096, 196, 4]⟩ : Shape).Idx → EReal) (b : Fin 4096) : Fin 196 → Fin 4 → EReal :=
  fun n d => P (ix3 b n d)

/-- All images' edge weights, [4096, 196, 196]. -/
def adjG (P : (⟨3, ![4096, 196, 4]⟩ : Shape).Idx → EReal) : (⟨3, ![4096, 196, 196]⟩ : Shape).Idx → EReal :=
  fun i => adj (row P (i 0)) (i 1) (i 2)

/-- All images' pooled features, [4096, 4]. -/
def poolG (P : (⟨3, ![4096, 196, 4]⟩ : Shape).Idx → EReal) : (⟨2, ![4096, 4]⟩ : Shape).Idx → EReal :=
  fun i => pool (row P (i 0)) (i 1)

theorem adjG_ix (P : (⟨3, ![4096, 196, 4]⟩ : Shape).Idx → EReal) (b : Fin 4096) (n m : Fin 196) :
    adjG P (ix3 b n m) = adj (row P b) n m := rfl

theorem poolG_ix (P : (⟨3, ![4096, 196, 4]⟩ : Shape).Idx → EReal) (b : Fin 4096) (d : Fin 4) :
    poolG P (ix2 b d) = pool (row P b) d := rfl

end Cert.Spec

end
-- ==== Proof.LibEdgeWeight.lean ====
/-
  The weight of a thresholded edge, in two spellings, at the extended reals.

  For a similarity value f (ANY extended real), the two thresholds 1/2 and θ (θ the binary float nearest 0.8, so
  1/2 ≤ θ), and a bit e marking the diagonal, the weight
      (1/2 · [f ≥ 1/2] + 1/2 · [f ≥ θ]) · (1 − [e])
  equals the nested choice
      if e then 0 else if f ≥ θ then 1 else if f ≥ 1/2 then 1/2 else 0.
  Only the three bits matter. f ≥ θ forces f ≥ 1/2 because 1/2 ≤ θ, and in each of the six remaining cases both sides
  are one of the three real numbers 0, 1/2, 1. Nothing is asked of f: it enters through the two comparisons only.

  Also here, for any proof that meets a comparison turned into a number: the floats 0.0, 0.5, 1.0 and the float nearest
  0.8 as real numbers (zero_eq, half_eq, one_eq, thr_eq); a comparison "x ≥ y" as the bit 1 or 0 according to y ≤ x
  (cmp_oge_of_le, cmp_oge_of_not_le); a bit widened to a word and read signed, or read unsigned, as the real 0 or 1
  (signed_one, signed_zero, unsigned_one, unsigned_zero).
-/
import Idealize.ShloMosaic.PureOps.Ideal
import Idealize.ShloMosaic.Lib.ValueIdx

noncomputable section

namespace Cert.EdgeWeight

open Idealize.ShloMosaic

/-- The float 0.5 is the real number 1/2. -/
theorem half_eq : Ideal.ofBits .f32 0x3F000000#32 = ((1 / 2 : ℝ) : EReal) := by
  simp [Ideal.ofBits, Ideal.ieee, -EReal.coe_mul]; norm_num

/-- The float 1.0 is the real number 1. -/
theorem one_eq : Ideal.ofBits .f32 0x3F800000#32 = ((1 : ℝ) : EReal) := by
  simp [Ideal.ofBits, Ideal.ieee, -EReal.coe_mul]; norm_num

/-- The float 0.0 is the real number 0. -/
theorem zero_eq : Ideal.ofBits .f32 0x00000000#32 = ((0 : ℝ) : EReal) := by
  simp [Ideal.ofBits, Ideal.ieee]

/-- The float nearest 0.8 is the dyadic rational 13421773 / 2^24. -/
theorem thr_eq : Ideal.ofBits .f32 0x3F4CCCCD#32 = ((13421773 / 16777216 : ℝ) : EReal) := by
  simp [Ideal.ofBits, Ideal.ieee, -EReal.coe_mul]; norm_num

/-- 1/2 ≤ θ. -/
theorem half_le_thr : Ideal.ofBits .f32 0x3F000000#32 ≤ Ideal.ofBits .f32 0x3F4CCCCD#32 := by
  rw [half_eq, thr_eq]; exact EReal.coe_le_coe_iff.2 (by norm_num)

/-- A comparison "x ≥ y" that holds is the bit 1. -/
theorem cmp_oge_of_le {x y : EReal} (h : y ≤ x) : Ideal.cmp .oge x y = 1#1 := by
  show BitVec.ofBool (decide (y ≤ x)) = 1#1
  rw [decide_eq_true h]; rfl

/-- A comparison "x ≥ y" that fails is the bit 0. -/
theorem cmp_oge_of_not_le {x y : EReal} (h : ¬ y ≤ x) : Ideal.cmp .oge x y = 0#1 := by
  show BitVec.ofBool (decide (y ≤ x)) = 0#1
  rw [decide_eq_false h]; rfl

/-- A bit widened to a word and read as a signed integer, as a real: 1 for the bit 1, 0 for the bit 0. -/
theorem signed_one : ((((1#1 : BitVec 1).setWidth 32).toInt : ℝ) : EReal) = ((1 : ℝ) : EReal) := by
  have h : ((1#1 : BitVec 1).setWidth 32).toInt = 1 := by decide
  rw [h, Int.cast_one]
theorem signed_zero : ((((0#1 : BitVec 1).setWidth 32).toInt : ℝ) : EReal) = ((0 : ℝ) : EReal) := by
  have h : ((0#1 : BitVec 1).setWidth 32).toInt = 0 := by decide
  rw [h, Int.cast_zero]
/-- A bit read as an unsigned integer, as a real. -/
theorem unsigned_one : ((((1#1 : BitVec 1).toNat : ℕ) : ℝ) : EReal) = ((1 : ℝ) : EReal) := by
  have h : (1#1 : BitVec 1).toNat = 1 := by decide
  rw [h, Nat.cast_one]
theorem unsigned_zero : ((((0#1 : BitVec 1).toNat : ℕ) : ℝ) : EReal) = ((0 : ℝ) : EReal) := by
  have h : (0#1 : BitVec 1).toNat = 0 := by decide
  rw [h, Nat.cast_zero]

/-- The arithmetic on the three numbers: (1/2·a + 1/2·b)·(1 − e) for a, b, e ∈ {0, 1}. -/
theorem arith (a b e r : ℝ) (h : (1 / 2 * a + 1 / 2 * b) * (1 - e) = r) :
    (((1 / 2 : ℝ) : EReal) * (a : EReal) + ((1 / 2 : ℝ) : EReal) * (b : EReal)) * (((1 : ℝ) : EReal) - (e : EReal)) = (r : EReal) := by
  rw [← EReal.coe_mul, ← EReal.coe_mul, ← EReal.coe_add, ← EReal.coe_sub, ← EReal.coe_mul, h]

/-- THE LAW. The arithmetic weight is the nested choice, for every extended real f and every diagonal bit e. -/
theorem weight_eq (f : EReal) (e : BitVec 1) :
    (Ideal.ofBits .f32 0x3F000000#32 * ((((Ideal.cmp .oge f (Ideal.ofBits .f32 0x3F000000#32)).setWidth 32).toInt : ℝ) : EReal)
        + Ideal.ofBits .f32 0x3F000000#32 * ((((Ideal.cmp .oge f (Ideal.ofBits .f32 0x3F4CCCCD#32)).setWidth 32).toInt : ℝ) : EReal))
      * (Ideal.ofBits .f32 0x3F800000#32 - (((e.toNat : ℕ) : ℝ) : EReal))
    = Scalar.select e (Ideal.ofBits .f32 0x00000000#32)
        (Scalar.select (Ideal.cmp .oge f (Ideal.ofBits .f32 0x3F4CCCCD#32)) (Ideal.ofBits .f32 0x3F800000#32)
          (Scalar.select (Ideal.cmp .oge f (Ideal.ofBits .f32 0x3F000000#32)) (Ideal.ofBits .f32 0x3F000000#32)
            (Ideal.ofBits .f32 0x00000000#32))) := by
  by_cases h2 : Ideal.ofBits .f32 0x3F4CCCCD#32 ≤ f
  · have h1 : Ideal.ofBits .f32 0x3F000000#32 ≤ f := half_le_thr.trans h2
    rw [cmp_oge_of_le h1, cmp_oge_of_le h2]
    rcases BitVec.eq_zero_or_eq_one e with he | he <;> subst he
    · rw [ValueIdx.select_zero, ValueIdx.select_one, half_eq, one_eq, signed_one, unsigned_zero]
      exact arith 1 1 0 1 (by norm_num)
    · rw [ValueIdx.select_one, half_eq, one_eq, zero_eq, signed_one, unsigned_one]
      exact arith 1 1 1 0 (by norm_num)
  · rw [cmp_oge_of_not_le h2]
    by_cases h1 : Ideal.ofBits .f32 0x3F000000#32 ≤ f
    · rw [cmp_oge_of_le h1]
      rcases BitVec.eq_zero_or_eq_one e with he | he <;> subst he
      · rw [ValueIdx.select_zero, ValueIdx.select_zero, ValueIdx.select_one, half_eq, one_eq, signed_one, signed_zero, unsigned_zero]
        exact arith 1 0 0 (1 / 2) (by norm_num)
      · rw [ValueIdx.select_one, half_eq, one_eq, zero_eq, signed_one, signed_zero, unsigned_one]
        exact arith 1 0 1 0 (by norm_num)
    · rw [cmp_oge_of_not_le h1]
      rcases BitVec.eq_zero_or_eq_one e with he | he <;> subst he
      · rw [ValueIdx.select_zero, ValueIdx.select_zero, ValueIdx.select_zero, half_eq, one_eq, zero_eq, signed_zero, unsigned_zero]
        exact arith 0 0 0 0 (by norm_num)
      · rw [ValueIdx.select_one, half_eq, one_eq, zero_eq, signed_zero, unsigned_one]
        exact arith 0 0 1 0 (by norm_num)

end Cert.EdgeWeight

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.KernelBody.lean ====
/-
  The kernel's body on one block of 32 images, read at coordinates.

  A block X holds 32 images in the layout (image, pixel, patch); image b of it, read as patches of pixels, is
  p n d = X (b, d, n). The body takes cosines; sums their squares over the 4 pixels (a lane-wise sum over axis 1,
  kept as a unit axis), takes the root, adds ε and spreads the result back over the pixels; divides; contracts the
  scaled features of two patches over the pixel axis (one matrix product per image, into a zero accumulator: the
  plain sum of 4 products); squares; turns the two comparisons against 1/2 and θ into 0/1 numbers, halves and adds
  them, and multiplies by the mask it is handed. Where the mask is "1 minus the diagonal bit" that weight is the
  nested choice of the specification (the one law, weight_eq of Proof/LibEdgeWeight.lean). The second result is the sum of the cosines
  over the 196 patches divided by 196.
-/
import proofs.«108342_j65481071404068_2_alg».proof.Proof.Gen.KernelIdeal.Skeleton
import proofs.«108342_j65481071404068_2_alg».proof.Proof.Spec
import proofs.«108342_j65481071404068_2_alg».proof.Proof.LibEdgeWeight
import proofs.«108342_j65481071404068_2_alg».proof.Proof.LibOneAxisDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelBody

open Cert.KernelIdeal Cert.KernelIdeal.Gen Idealize.ShloMosaic Idealize.ShloMosaic.ValueIdx Cert.Spec

/-- Image b of a block, as patches of pixels. -/
def blockRow (X : FVec Ideal S32x4x196 .f32) (b : Fin 32) : Fin 196 → Fin 4 → EReal := fun n d => X (ix3 b d n)

/-! ## The layout operations and the two sums, over any operand -/

/-- The sum over the pixel axis, at (image, patch). -/
theorem sum_pixels_at (y : FVec Ideal S32x4x196 .f32) (b : Fin 32) (n : Fin 196) :
    multiReduction .add [1] S32x196 y 0x00000000#32 reduces_S32x4x196_S32x196 (.inl rfl) rfl (ix2 b n)
      = ∑ d : Fin 4, y (ix3 b d n) := by
  refine (Ideal.multiReduction_add_single y 0x00000000#32 reduces_S32x4x196_S32x196 (.inl rfl) rfl (ix2 b n)).trans ?_
  refine Finset.sum_congr rfl fun d _ => congrArg y ?_
  exact funext fun a => Fin.ext (by match a with | ⟨0, _⟩ => rfl | ⟨1, _⟩ => rfl | ⟨2, _⟩ => rfl)

/-- The sum over the patch axis, at (image, pixel). -/
theorem sum_patches_at (y : FVec Ideal S32x4x196 .f32) (b : Fin 32) (d : Fin 4) :
    multiReduction .add [2] S32x4 y 0x00000000#32 reduces_S32x4x196_S32x4 (.inl rfl) rfl (ix2 b d)
      = ∑ n : Fin 196, y (ix3 b d n) := by
  refine (Ideal.multiReduction_add_single y 0x00000000#32 reduces_S32x4x196_S32x4 (.inl rfl) rfl (ix2 b d)).trans ?_
  refine Finset.sum_congr rfl fun n _ => congrArg y ?_
  exact funext fun a => Fin.ext (by match a with | ⟨0, _⟩ => rfl | ⟨1, _⟩ => rfl | ⟨2, _⟩ => rfl)

/-- A [32, 196] array given a unit middle axis reads the same entry. -/
theorem keep_axis_at (s : FVec Ideal S32x196 .f32) (b : Fin 32) (u : Fin 1) (n : Fin 196) :
    shapeCast S32x1x196 s shapeCasts_S32x196_S32x1x196 (ix3 b u n) = s (ix2 b n) :=
  shapeCast_apply s shapeCasts_S32x196_S32x1x196 (ix3 b u n) (ix2 b n) (by
    have hu : u.val = 0 := by omega
    rw [Shape.rowMajor_val_two, Shape.rowMajor_val_three]
    show b.val * 196 + n.val = (b.val * 1 + u.val) * 196 + n.val
    rw [hu]; omega)

/-- A [32, 1, 196] array spread over the 4 pixels reads its one row. -/
theorem spread_pixels_at (v : FVec Ideal S32x1x196 .f32) (b : Fin 32) (d : Fin 4) (n : Fin 196) :
    broadcastTo S32x4x196 v broadcasts_S32x1x196_S32x4x196 (ix3 b d n) = v (ix3 b (0 : Fin 1) n) :=
  broadcastTo_apply v broadcasts_S32x1x196_S32x4x196 (ix3 b d n) (ix3 b (0 : Fin 1) n)
    (fun a => by match a with | ⟨0, _⟩ => rfl | ⟨1, _⟩ => rfl | ⟨2, _⟩ => rfl)

/-- The [196, 196] mask spread over the 32 images reads the mask. -/
theorem spread_mask_at (X1 : FVec Ideal S196x196 .f32) (b : Fin 32) (n m : Fin 196) :
    broadcastTo S32x196x196 (shapeCast S1x196x196 (shapeCast S196x196 X1 shapeCasts_S196x196_S196x196)
      shapeCasts_S196x196_S1x196x196) broadcasts_S1x196x196_S32x196x196 (ix3 b n m) = X1 (ix2 n m) := by
  rw [shapeCast_self]
  refine (broadcastTo_apply _ broadcasts_S1x196x196_S32x196x196 (ix3 b n m) (ix3 (0 : Fin 1) n m)
    (fun a => by match a with | ⟨0, _⟩ => rfl | ⟨1, _⟩ => rfl | ⟨2, _⟩ => rfl)).trans ?_
  exact shapeCast_ab_1ab_apply X1 shapeCasts_S196x196_S1x196x196 0 n m

/-! ## The per-image matrix product: which operand entries meet -/

theorem lhs_image (i : S32x196x196.Idx) (q : dot_S32x4x196_S32x4x196_S32x196x196_1_1_2_2_0_0.contr.Idx) :
    (dot_S32x4x196_S32x4x196_S32x196x196_1_1_2_2_0_0.lhsIdx i q 0).val = (i 0).val := by
  unfold DotDims.lhsIdx
  rw [dif_pos (show (0 : Fin S32x4x196.rank) ∈ dot_S32x4x196_S32x4x196_S32x196x196_1_1_2_2_0_0.lhsBatch by decide)]
  rfl
theorem lhs_pixel (i : S32x196x196.Idx) (q : dot_S32x4x196_S32x4x196_S32x196x196_1_1_2_2_0_0.contr.Idx) :
    (dot_S32x4x196_S32x4x196_S32x196x196_1_1_2_2_0_0.lhsIdx i q 1).val = (q ⟨0, by decide⟩).val :=
  dot_S32x4x196_S32x4x196_S32x196x196_1_1_2_2_0_0.lhsIdx_val_of_single rfl i q
theorem lhs_patch (i : S32x196x196.Idx) (q : dot_S32x4x196_S32x4x196_S32x196x196_1_1_2_2_0_0.contr.Idx) :
    (dot_S32x4x196_S32x4x196_S32x196x196_1_1_2_2_0_0.lhsIdx i q 2).val = (i 1).val := by
  unfold DotDims.lhsIdx
  rw [dif_neg (show ¬(2 : Fin S32x4x196.rank) ∈ dot_S32x4x196_S32x4x196_S32x196x196_1_1_2_2_0_0.lhsBatch by decide),
    dif_pos (show (2 : Fin S32x4x196.rank) ∈ dot_S32x4x196_S32x4x196_S32x196x196_1_1_2_2_0_0.lhsNonContracting by decide)]
  rfl
theorem rhs_image (i : S32x196x196.Idx) (q : dot_S32x4x196_S32x4x196_S32x196x196_1_1_2_2_0_0.contr.Idx) :
    (dot_S32x4x196_S32x4x196_S32x196x196_1_1_2_2_0_0.rhsIdx i q 0).val = (i 0).val := by
  unfold DotDims.rhsIdx
  rw [dif_pos (show (0 : Fin S32x4x196.rank) ∈ dot_S32x4x196_S32x4x196_S32x196x196_1_1_2_2_0_0.rhsBatch by decide)]
  rfl
theorem rhs_pixel (i : S32x196x196.Idx) (q : dot_S32x4x196_S32x4x196_S32x196x196_1_1_2_2_0_0.contr.Idx) :
    (dot_S32x4x196_S32x4x196_S32x196x196_1_1_2_2_0_0.rhsIdx i q 1).val = (q ⟨0, by decide⟩).val :=
  dot_S32x4x196_S32x4x196_S32x196x196_1_1_2_2_0_0.rhsIdx_val_of_single rfl i q
theorem rhs_patch (i : S32x196x196.Idx) (q : dot_S32x4x196_S32x4x196_S32x196x196_1_1_2_2_0_0.contr.Idx) :
    (dot_S32x4x196_S32x4x196_S32x196x196_1_1_2_2_0_0.rhsIdx i q 2).val = (i 2).val := by
  unfold DotDims.rhsIdx
  rw [dif_neg (show ¬(2 : Fin S32x4x196.rank) ∈ dot_S32x4x196_S32x4x196_S32x196x196_1_1_2_2_0_0.rhsBatch by decide),
    dif_pos (show (2 : Fin S32x4x196.rank) ∈ dot_S32x4x196_S32x4x196_S32x196x196_1_1_2_2_0_0.rhsNonContracting by decide)]
  rfl

/-- The product of a block with itself over the pixel axis, image by image, at (image, patch, patch): the sum over the
    4 pixels of the two patches' entries. -/
theorem gram_at (y : FVec Ideal S32x4x196 .f32) (b : Fin 32) (n m : Fin 196) :
    matmul dot_S32x4x196_S32x4x196_S32x196x196_1_1_2_2_0_0 (some .fp32) y y (constant S32x196x196 .f32 0x00000000#32) (ix3 b n m)
      = ∑ d : Fin 4, y (ix3 b d n) * y (ix3 b d m) :=
  Cert.Lib.OneAxisDot.matmul_zero_apply_at dot_S32x4x196_S32x4x196_S32x196x196_1_1_2_2_0_0 4 rfl rfl (some .fp32) y y
    (ix3 b n m) (fun k => ix3 b k n) (fun k => ix3 b k m)
    (fun k => funext fun a => Fin.ext (by
      have hk := contrEquiv1_symm_val dot_S32x4x196_S32x4x196_S32x196x196_1_1_2_2_0_0 4 rfl rfl k
      match a with
      | ⟨0, _⟩ => exact lhs_image _ _
      | ⟨1, _⟩ => exact (lhs_pixel _ _).trans hk
      | ⟨2, _⟩ => exact lhs_patch _ _))
    (fun k => funext fun a => Fin.ext (by
      have hk := contrEquiv1_symm_val dot_S32x4x196_S32x4x196_S32x196x196_1_1_2_2_0_0 4 rfl rfl k
      match a with
      | ⟨0, _⟩ => exact rhs_image _ _
      | ⟨1, _⟩ => exact (rhs_pixel _ _).trans hk
      | ⟨2, _⟩ => exact rhs_patch _ _))

/-! ## The body's values, named stage by stage -/

variable (X : FVec Ideal S32x4x196 .f32) (X1 : FVec Ideal S196x196 .f32)

/-- The cosines, entry by entry. -/
theorem cos_at (j : S32x4x196.Idx) : k0_pay1 (F := Ideal) X j = Ideal.cos (X j) := by
  unfold k0_pay1
  show Ideal.cos (shapeCast S32x4x196 X shapeCasts_S32x4x196_S32x4x196 j) = _
  rw [shapeCast_self]

/-- Sums of squared cosines over the pixels, [32, 196]. -/
def sumsqV : FVec Ideal S32x196 .f32 :=
  multiReduction .add [1] S32x196 (mulf (k0_pay1 (F := Ideal) X) (k0_pay1 (F := Ideal) X)) 0x00000000#32 reduces_S32x4x196_S32x196 (.inl rfl) rfl
/-- Lengths plus ε, [32, 1, 196]. -/
def lenV : FVec Ideal S32x1x196 .f32 :=
  addf (sqrt (shapeCast S32x1x196 (sumsqV X) shapeCasts_S32x196_S32x1x196)) (broadcast S32x1x196 (Scalar.ofBits .f32 0x2B8CBCCC#32))
/-- Scaled features, [32, 4, 196]. -/
def dirnV : FVec Ideal S32x4x196 .f32 :=
  divf (k0_pay1 (F := Ideal) X) (broadcastTo S32x4x196 (lenV X) broadcasts_S32x1x196_S32x4x196)
/-- Inner products, [32, 196, 196]. -/
def gramV : FVec Ideal S32x196x196 .f32 :=
  matmul dot_S32x4x196_S32x4x196_S32x196x196_1_1_2_2_0_0 (some .fp32) (dirnV X) (dirnV X) (constant S32x196x196 .f32 0x00000000#32)
/-- Similarities, [32, 196, 196]. -/
def fidV : FVec Ideal S32x196x196 .f32 := mulf (gramV X) (gramV X)
/-- The comparison "similarity ≥ the float with pattern θ" as a 0/1 number. -/
def stepV (θ : BitVec 32) : FVec Ideal S32x196x196 .f32 :=
  sitofp .f32 (extui 32 (cmpf .oge (fidV X) (broadcast S32x196x196 (Scalar.ofBits .f32 θ))) natLt_1_32)
/-- The mask spread over the images. -/
def maskV : FVec Ideal S32x196x196 .f32 :=
  broadcastTo S32x196x196 (shapeCast S1x196x196 (shapeCast S196x196 X1 shapeCasts_S196x196_S196x196)
    shapeCasts_S196x196_S1x196x196) broadcasts_S1x196x196_S32x196x196

/-- The first stored value is built from those stages. -/
theorem pay2_form : k0_pay2 (F := Ideal) X X1
    = mulf (addf (mulf (broadcast S32x196x196 (Scalar.ofBits .f32 0x3F000000#32)) (stepV X 0x3F000000#32))
        (mulf (broadcast S32x196x196 (Scalar.ofBits .f32 0x3F000000#32)) (stepV X 0x3F4CCCCD#32))) (maskV X1) := rfl

theorem sumsqV_at (b : Fin 32) (n : Fin 196) :
    sumsqV X (ix2 b n) = ∑ d : Fin 4, feat (blockRow X b) n d * feat (blockRow X b) n d := by
  unfold sumsqV
  rw [sum_pixels_at]
  simp only [mulf_apply, cos_at]
  rfl

theorem lenV_at (b : Fin 32) (u : Fin 1) (n : Fin 196) : lenV X (ix3 b u n) = len (blockRow X b) n := by
  unfold lenV
  show Ideal.sqrt (shapeCast S32x1x196 (sumsqV X) shapeCasts_S32x196_S32x1x196 (ix3 b u n)) + Ideal.ofBits .f32 0x2B8CBCCC#32 = _
  rw [keep_axis_at, sumsqV_at]
  rfl

theorem dirnV_at (b : Fin 32) (d : Fin 4) (n : Fin 196) : dirnV X (ix3 b d n) = dirn (blockRow X b) n d := by
  unfold dirnV
  show Ideal.div (k0_pay1 (F := Ideal) X (ix3 b d n)) (broadcastTo S32x4x196 (lenV X) broadcasts_S32x1x196_S32x4x196 (ix3 b d n)) = _
  rw [spread_pixels_at, lenV_at, cos_at]
  rfl

theorem fidV_at (b : Fin 32) (n m : Fin 196) : fidV X (ix3 b n m) = fid (blockRow X b) n m := by
  unfold fidV gramV
  show matmul dot_S32x4x196_S32x4x196_S32x196x196_1_1_2_2_0_0 (some .fp32) (dirnV X) (dirnV X) (constant S32x196x196 .f32 0x00000000#32) (ix3 b n m)
      * matmul dot_S32x4x196_S32x4x196_S32x196x196_1_1_2_2_0_0 (some .fp32) (dirnV X) (dirnV X) (constant S32x196x196 .f32 0x00000000#32) (ix3 b n m) = _
  rw [gram_at]
  simp only [dirnV_at]
  rfl

theorem stepV_at (θ : BitVec 32) (b : Fin 32) (n m : Fin 196) :
    stepV X θ (ix3 b n m)
      = ((((Ideal.cmp .oge (fid (blockRow X b) n m) (Ideal.ofBits .f32 θ)).setWidth 32).toInt : ℝ) : EReal) := by
  unfold stepV
  show ((((Ideal.cmp .oge (fidV X (ix3 b n m)) (Ideal.ofBits .f32 θ)).setWidth 32).toInt : ℝ) : EReal) = _
  rw [fidV_at]

/-- THE EDGE WEIGHTS OF A BLOCK: where the mask handed to the body is 1 minus the diagonal bit, the first stored value
    at (image, patch, patch) is the specification's edge weight of that image. -/
theorem pay2_at (b : Fin 32) (n m : Fin 196)
    (hmask : X1 (ix2 n m) = Ideal.ofBits .f32 0x3F800000#32 - ((((diag n m).toNat : ℕ) : ℝ) : EReal)) :
    k0_pay2 (F := Ideal) X X1 (ix3 b n m) = adj (blockRow X b) n m := by
  rw [pay2_form]
  show (Ideal.ofBits .f32 0x3F000000#32 * stepV X 0x3F000000#32 (ix3 b n m)
      + Ideal.ofBits .f32 0x3F000000#32 * stepV X 0x3F4CCCCD#32 (ix3 b n m)) * maskV X1 (ix3 b n m) = _
  rw [stepV_at, stepV_at]
  unfold maskV
  rw [spread_mask_at, hmask]
  exact Cert.EdgeWeight.weight_eq (fid (blockRow X b) n m) (diag n m)

/-- THE POOLED FEATURES OF A BLOCK: the second stored value at (image, pixel) is the specification's mean. -/
theorem pay3_at (b : Fin 32) (d : Fin 4) : k0_pay3 (F := Ideal) X (ix2 b d) = pool (blockRow X b) d := by
  unfold k0_pay3
  show Ideal.div (multiReduction .add [2] S32x4 (k0_pay1 (F := Ideal) X) 0x00000000#32 reduces_S32x4x196_S32x4 (.inl rfl) rfl (ix2 b d))
      (Ideal.ofBits .f32 0x43440000#32) = _
  rw [sum_patches_at]
  simp only [cos_at]
  rfl

end Cert.KernelBody

end
-- ==== Proof.KernelEntry.lean ====
/-
  What the kernel's two input arrays hold when the region is entered.

  Before the region the host cuts each image into patches (a reshape, a reshape, a transpose, a reshape: the same four
  operations the reference applies; the array they produce is called patches here and never opened) and transposes the
  last two axes, so that the array the first window reads holds patches (b, n, d) at (b, d, n). The mask is the
  constant 1 minus the diagonal bit read as a number, the bit being "row number plus zero equals column number" on
  32-bit words.
-/
import proofs.«108342_j65481071404068_2_alg».proof.Proof.Gen.KernelIdeal.Frame
import proofs.«108342_j65481071404068_2_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelEntry

open Cert.KernelIdeal Cert.KernelIdeal.Gen Idealize.ShloMosaic Idealize.ShloMosaic.TcCoe Idealize.SL.Sem
open Idealize.ShloMosaic.StableHlo Idealize.ShloMosaic.ValueIdx Cert.Spec

variable (m : (ℓ : Loc nD τ sig) → Buf (Elt Ideal) ℓ)

/-- The patch array of an image array: [4096, 1, 28, 28] cut into [4096, 196, 4]. -/
def patches (x0 : FVec Ideal S4096x1x28x28 .f32) : FVec Ideal S4096x196x4 .f32 :=
  shapeCast _ (transpose S4096x14x14x2x2 [0, 1, 3, 2, 4]
    (shapeCast _ (shapeCast _ x0 shapeCasts_S4096x1x28x28_S4096x28x28) shapeCasts_S4096x28x28_S4096x14x2x14x2)
    transposes_S4096x14x2x14x2_S4096x14x14x2x2_0_1_3_2_4) shapeCasts_S4096x14x14x2x2_S4096x196x4

/-- The first window's array at region entry: the patch array with its last two axes exchanged. -/
theorem entry_patches (c : Dev nD) :
    (V m c main_v4 : S4096x4x196.Idx → EReal)
      = transpose S4096x4x196 [0, 2, 1] (patches (m ((c : Thread nD τ).loc main_arg0))) transposes_S4096x196x4_S4096x4x196_0_2_1 := by
  show StableHlo.after hostOps0 (fun b => m (c, b)) (Proc.devRef .tc main_v4) = _
  after_results
  rfl

/-- At (image, pixel, patch) it holds the patch array's (image, patch, pixel). -/
theorem entry_patches_at (c : Dev nD) (b : Fin 4096) (d : Fin 4) (n : Fin 196) :
    (V m c main_v4 : S4096x4x196.Idx → EReal) (ix3 b d n) = patches (m ((c : Thread nD τ).loc main_arg0)) (ix3 b n d) := by
  rw [entry_patches]
  exact transpose_ix3_021_apply _ transposes_S4096x196x4_S4096x4x196_0_2_1 b d n

/-- The second window's array at region entry: one minus the diagonal bit. -/
theorem entry_mask (c : Dev nD) :
    (V m c main_v12 : S196x196.Idx → EReal)
      = subf (broadcastInDim S196x196 ![] bcast_S_S196x196 (constant (F := Ideal) S_ .f32 0x3F800000#32))
          (uitofp .f32 (cmpi .eq (addi (iotaInDim S196x196 32 0)
            (broadcastInDim S196x196 ![] bcast_S_S196x196 (constantI S_ 32 0#32))) (iotaInDim S196x196 32 1))) := by
  show StableHlo.after hostOps0 (fun b => m (c, b)) (Proc.devRef .tc main_v12) = _
  after_results

/-- At (row, column): the float 1.0 minus the diagonal bit as a number. -/
theorem entry_mask_at (c : Dev nD) (n k : Fin 196) :
    (V m c main_v12 : S196x196.Idx → EReal) (ix2 n k)
      = Ideal.ofBits .f32 0x3F800000#32 - ((((diag n k).toNat : ℕ) : ℝ) : EReal) := by
  rw [entry_mask]
  rfl

end Cert.KernelEntry

end
-- ==== Proof.KernelValue.lean ====
/-
  The kernel's two result arrays after the run, as whole-array functions of the image array.

  The grid has 128 points; point t handles images 32t … 32t + 31. Its block of the first input array, read as
  patches of pixels, is those images' rows of the patch array; the mask window is the whole mask at every point. So
  what point t writes back is block t of the specification's arrays (edge weights, pooled features), the 128 blocks
  tile both arrays, and the arrays end holding the specification's functions. After the region the host applies the
  two-layer map (a product with W1, a bias row, a product with W2, a bias row) to the pooled features; that map is
  one function here, never opened.
-/
import proofs.«108342_j65481071404068_2_alg».proof.Proof.Gen.KernelIdeal.Frame
import proofs.«108342_j65481071404068_2_alg».proof.Proof.KernelBody
import proofs.«108342_j65481071404068_2_alg».proof.Proof.KernelEntry
import Idealize.ShloMosaic.Lib.Pipeline.Value
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx Cert.Spec Cert.KernelBody Cert.KernelEntry

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The image array as launched, on core c. -/
abbrev img (c : Dev nD) : FVec Ideal S4096x1x28x28 .f32 := m ((c : Thread nD τ).loc main_arg0)

/-- The printed index maps over the grid: the three image-blocked windows sit at block t along the image axis and at
    block 0 elsewhere; the mask window at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Image 32t + b. -/
def imageOf (t : Fin cfg0.N) (b : Fin 32) : Fin 4096 :=
  ⟨t.val * 32 + b.val, by have hN : cfg0.N = 128 := N_0; have := t.isLt; have := b.isLt; omega⟩

/-! ## The input blocks -/

/-- Image b of point t's block of the first input array is image 32t + b of the patch array. -/
theorem blockRow_eq (c : Dev nD) (t : Fin cfg0.N) (b : Fin 32) :
    blockRow (iblk m c 0 t) b = row (patches (img m c)) (imageOf t b) := by
  obtain ⟨e0, e1, e2, -⟩ := idx_facts t
  funext n d
  show V m c main_v4 (((cfg0.win 0).blk t).view.emb (ix3 b d n)) = patches (img m c) (ix3 (imageOf t b) n d)
  have he : ((cfg0.win 0).blk t).view.emb (ix3 b d n) = ix3 (imageOf t b) d n := by
    funext a; apply Fin.ext
    match a with
    | ⟨0, _⟩ => show win0_0.index t (0 : Fin 3) * 32 + 1 * b.val = t.val * 32 + b.val; rw [e0]; omega
    | ⟨1, _⟩ => show win0_0.index t (1 : Fin 3) * 4 + 1 * d.val = d.val; rw [e1]; omega
    | ⟨2, _⟩ => show win0_0.index t (2 : Fin 3) * 196 + 1 * n.val = n.val; rw [e2]; omega
  rw [he]
  exact entry_patches_at m c (imageOf t b) d n

/-- Point t's block of the mask window is the mask. -/
theorem mask_block_at (c : Dev nD) (t : Fin cfg0.N) (n k : Fin 196) :
    (iblk m c 1 t : FVec Ideal S196x196 .f32) (ix2 n k)
      = Ideal.ofBits .f32 0x3F800000#32 - ((((diag n k).toNat : ℕ) : ℝ) : EReal) := by
  obtain ⟨-, -, -, e3, e4, -⟩ := idx_facts t
  show V m c main_v12 (((cfg0.win 1).blk t).view.emb (ix2 n k)) = _
  have he : ((cfg0.win 1).blk t).view.emb (ix2 n k) = ix2 n k := by
    funext a; apply Fin.ext
    match a with
    | ⟨0, _⟩ => show win0_1.index t (0 : Fin 2) * 196 + 1 * n.val = n.val; rw [e3]; omega
    | ⟨1, _⟩ => show win0_1.index t (1 : Fin 2) * 196 + 1 * k.val = k.val; rw [e4]; omega
  rw [he]
  exact entry_mask_at m c n k

/-! ## The edge weights: output window 3 -/

/-- What point t writes back is block t of the edge-weight array. -/
theorem flushed_adj (c : Dev nD) (t : Fin cfg0.N) :
    (dats m 0 c).flushed 3 t = ((cfg0.win 3).blk t).view.read (Elt Ideal) (adjG (patches (img m c))) := by
  show (cfg0.win 3).cut (grid0.coords t) ((dats m 0 c).after 3 t) = _
  rw [after0_3]
  unfold out0_3
  rw [View.canon_unit_zero hz3]
  simp only [View.ld_unit_zero (S := S32x4x196) hz3, View.ld_unit_zero (S := S196x196) hz2]
  obtain ⟨-, -, -, -, -, -, -, e7, e8, e9⟩ := idx_facts t
  show (fun j : S32x196x196.Idx => k0_pay2 (F := Ideal) (iblk m c 0 t) (iblk m c 1 t) j)
      = fun j : S32x196x196.Idx => adjG (patches (img m c)) (((cfg0.win 3).blk t).view.emb j)
  funext j
  obtain ⟨b, n, k, rfl⟩ : ∃ (b : Fin 32) (n k : Fin 196), j = ix3 b n k := ⟨j 0, j 1, j 2, eq_ix3 j⟩
  have he : ((cfg0.win 3).blk t).view.emb (ix3 b n k) = ix3 (imageOf t b) n k := by
    funext a; apply Fin.ext
    match a with
    | ⟨0, _⟩ => show win0_3.index t (0 : Fin 3) * 32 + 1 * b.val = t.val * 32 + b.val; rw [e7]; omega
    | ⟨1, _⟩ => show win0_3.index t (1 : Fin 3) * 196 + 1 * n.val = n.val; rw [e8]; omega
    | ⟨2, _⟩ => show win0_3.index t (2 : Fin 3) * 196 + 1 * k.val = k.val; rw [e9]; omega
  rw [he, adjG_ix]
  refine (pay2_at (iblk m c 0 t) (iblk m c 1 t) b n k (mask_block_at m c t n k)).trans ?_
  rw [blockRow_eq]

theorem mem_blk_adj (t : Fin cfg0.N) (i : S4096x196x196.Idx) :
    i ∈ ((cfg0.win 3).blk t).view.set ↔ ∀ a : Fin 3, win0_3.index t a * S32x196x196.size a ≤ (i a).val
      ∧ (i a).val < win0_3.index t a * S32x196x196.size a + S32x196x196.size a := by
  show i ∈ ((View.whole main_v13_1).slice (win0_3.rect t)).set ↔ _
  rw [View.set_slice_whole, Rect.mem_set_unit]
  exact Iff.rfl

/-- Every entry of the edge-weight array is in the block of the point that handles its image. -/
theorem cover_adj (i : S4096x196x196.Idx) :
    ∃ t : Fin cfg0.N, (cfg0.win 3).flush t = true ∧ i ∈ ((cfg0.win 3).blk t).view.set := by
  have hN : cfg0.N = 128 := N_0
  have h0 : (i 0).val < 4096 := (i 0).isLt
  have h1 : (i 1).val < 196 := (i 1).isLt
  have h2 : (i 2).val < 196 := (i 2).isLt
  let t : Fin cfg0.N := ⟨(i 0).val / 32, by omega⟩
  obtain ⟨-, -, -, -, -, -, -, e7, e8, e9⟩ := idx_facts t
  have ht : t.val = (i 0).val / 32 := rfl
  refine ⟨t, flush0_3 t, ?_⟩
  rw [mem_blk_adj]
  intro a
  match a with
  | ⟨0, _⟩ => show win0_3.index t (0 : Fin 3) * 32 ≤ (i 0).val ∧ (i 0).val < win0_3.index t (0 : Fin 3) * 32 + 32; rw [e7, ht]; omega
  | ⟨1, _⟩ => show win0_3.index t (1 : Fin 3) * 196 ≤ (i 1).val ∧ (i 1).val < win0_3.index t (1 : Fin 3) * 196 + 196; rw [e8]; omega
  | ⟨2, _⟩ => show win0_3.index t (2 : Fin 3) * 196 ≤ (i 2).val ∧ (i 2).val < win0_3.index t (2 : Fin 3) * 196 + 196; rw [e9]; omega

/-- The edge-weight array after the run. -/
theorem final_adj (c : Dev nD) : (dats m 0 c).arrAt 3 cfg0.N = adjG (patches (img m c)) :=
  (dats m 0 c).arrAt_eq_of_cover 3 (adjG (patches (img m c))) (fun t _ => flushed_adj m c t) cover_adj

/-! ## The pooled features: output window 2 -/

/-- What point t writes back is block t of the pooled-feature array. -/
theorem flushed_pool (c : Dev nD) (t : Fin cfg0.N) :
    (dats m 0 c).flushed 2 t = ((cfg0.win 2).blk t).view.read (Elt Ideal) (poolG (patches (img m c))) := by
  show (cfg0.win 2).cut (grid0.coords t) ((dats m 0 c).after 2 t) = _
  rw [after0_2]
  unfold out0_2
  rw [View.canon_unit_zero hz2]
  simp only [View.ld_unit_zero (S := S32x4x196) hz3]
  obtain ⟨-, -, -, -, -, e5, e6, -⟩ := idx_facts t
  show (fun j : S32x4.Idx => k0_pay3 (F := Ideal) (iblk m c 0 t) j)
      = fun j : S32x4.Idx => poolG (patches (img m c)) (((cfg0.win 2).blk t).view.emb j)
  funext j
  obtain ⟨b, d, rfl⟩ : ∃ (b : Fin 32) (d : Fin 4), j = ix2 b d := ⟨j 0, j 1, eq_ix2 j⟩
  have he : ((cfg0.win 2).blk t).view.emb (ix2 b d) = ix2 (imageOf t b) d := by
    funext a; apply Fin.ext
    match a with
    | ⟨0, _⟩ => show win0_2.index t (0 : Fin 2) * 32 + 1 * b.val = t.val * 32 + b.val; rw [e5]; omega
    | ⟨1, _⟩ => show win0_2.index t (1 : Fin 2) * 4 + 1 * d.val = d.val; rw [e6]; omega
  rw [he, poolG_ix]
  refine (pay3_at (iblk m c 0 t) b d).trans ?_
  rw [blockRow_eq]

theorem mem_blk_pool (t : Fin cfg0.N) (i : S4096x4.Idx) :
    i ∈ ((cfg0.win 2).blk t).view.set ↔ ∀ a : Fin 2, win0_2.index t a * S32x4.size a ≤ (i a).val
      ∧ (i a).val < win0_2.index t a * S32x4.size a + S32x4.size a := by
  show i ∈ ((View.whole main_v13_0).slice (win0_2.rect t)).set ↔ _
  rw [View.set_slice_whole, Rect.mem_set_unit]
  exact Iff.rfl

theorem cover_pool (i : S4096x4.Idx) :
    ∃ t : Fin cfg0.N, (cfg0.win 2).flush t = true ∧ i ∈ ((cfg0.win 2).blk t).view.set := by
  have hN : cfg0.N = 128 := N_0
  have h0 : (i 0).val < 4096 := (i 0).isLt
  have h1 : (i 1).val < 4 := (i 1).isLt
  let t : Fin cfg0.N := ⟨(i 0).val / 32, by omega⟩
  obtain ⟨-, -, -, -, -, e5, e6, -⟩ := idx_facts t
  have ht : t.val = (i 0).val / 32 := rfl
  refine ⟨t, flush0_2 t, ?_⟩
  rw [mem_blk_pool]
  intro a
  match a with
  | ⟨0, _⟩ => show win0_2.index t (0 : Fin 2) * 32 ≤ (i 0).val ∧ (i 0).val < win0_2.index t (0 : Fin 2) * 32 + 32; rw [e5, ht]; omega
  | ⟨1, _⟩ => show win0_2.index t (1 : Fin 2) * 4 ≤ (i 1).val ∧ (i 1).val < win0_2.index t (1 : Fin 2) * 4 + 4; rw [e6]; omega

/-- The pooled-feature array after the run. -/
theorem final_pool (c : Dev nD) : (dats m 0 c).arrAt 2 cfg0.N = poolG (patches (img m c)) :=
  (dats m 0 c).arrAt_eq_of_cover 2 (poolG (patches (img m c))) (fun t _ => flushed_pool m c t) cover_pool

/-! ## The host's two-layer map after the region -/

/-- The two-layer map: (pooled · W1 + b1) · W2 + b2, each bias a row added to every row. -/
def mlp (pooled : FVec Ideal S4096x4 .f32) (w1 : FVec Ideal S4x32 .f32) (b1 : FVec Ideal S32 .f32)
    (w2 : FVec Ideal S32x10 .f32) (b2 : FVec Ideal S10 .f32) : FVec Ideal S4096x10 .f32 :=
  addf (Host.dotGeneral (F := Ideal) dot_S4096x32_S32x10_S4096x10_1_0_0_1_n_n none
      (addf (Host.dotGeneral (F := Ideal) dot_S4096x4_S4x32_S4096x32_1_0_0_1_n_n none pooled w1)
        (broadcastInDim S4096x32 ![0, 1] bcast_S1x32_S4096x32_0_1 (broadcastInDim S1x32 ![1] bcast_S32_S1x32_1 b1))) w2)
    (broadcastInDim S4096x10 ![0, 1] bcast_S1x10_S4096x10_0_1 (broadcastInDim S1x10 ![1] bcast_S10_S1x10_1 b2))

/-- What the lines after the region find in the pooled-feature array: what the region left. -/
theorem found_pooled (c : Dev nD) (A : (w : Fin 4) → Buf (Elt Ideal) ((spec0 w).arr.view.loc (c.tc : Thread nD τ))) :
    Pipeline.withArrays spec0 c (V0 m c) A (Proc.devRef .tc main_v13_0) = A 2 :=
  Pipeline.withArrays_arr spec0 launch0.win.arr_inj c (V0 m c) A 2

/-- What they find in each argument: its contents at launch. -/
theorem found_arg1 (c : Dev nD) (A : (w : Fin 4) → Buf (Elt Ideal) ((spec0 w).arr.view.loc (c.tc : Thread nD τ))) :
    Pipeline.withArrays spec0 c (V0 m c) A (Proc.devRef .tc main_arg1) = m ((c : Thread nD τ).loc main_arg1) :=
  (Pipeline.withArrays_of_ne spec0 c (V0 m c) A main_arg1 (by decide)).trans (V_main_arg1 m c)
theorem found_arg2 (c : Dev nD) (A : (w : Fin 4) → Buf (Elt Ideal) ((spec0 w).arr.view.loc (c.tc : Thread nD τ))) :
    Pipeline.withArrays spec0 c (V0 m c) A (Proc.devRef .tc main_arg2) = m ((c : Thread nD τ).loc main_arg2) :=
  (Pipeline.withArrays_of_ne spec0 c (V0 m c) A main_arg2 (by decide)).trans (V_main_arg2 m c)
theorem found_arg3 (c : Dev nD) (A : (w : Fin 4) → Buf (Elt Ideal) ((spec0 w).arr.view.loc (c.tc : Thread nD τ))) :
    Pipeline.withArrays spec0 c (V0 m c) A (Proc.devRef .tc main_arg3) = m ((c : Thread nD τ).loc main_arg3) :=
  (Pipeline.withArrays_of_ne spec0 c (V0 m c) A main_arg3 (by decide)).trans (V_main_arg3 m c)
theorem found_arg4 (c : Dev nD) (A : (w : Fin 4) → Buf (Elt Ideal) ((spec0 w).arr.view.loc (c.tc : Thread nD τ))) :
    Pipeline.withArrays spec0 c (V0 m c) A (Proc.devRef .tc main_arg4) = m ((c : Thread nD τ).loc main_arg4) :=
  (Pipeline.withArrays_of_ne spec0 c (V0 m c) A main_arg4 (by decide)).trans (V_main_arg4 m c)

/-- The first result after the lines that follow the region: the two-layer map of the pooled features. -/
theorem tail_logits (c : Dev nD) :
    Pipeline.afterTail₀ cfgs (dats m) 0 (V0 m) [hostOps1] c main_v21
      = mlp (poolG (patches (img m c))) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v21) = _
  after_results
  rw [found_pooled, found_arg1, found_arg2, found_arg3, found_arg4, final_pool]
  rfl

/-! ## The run, read -/

/-- Every weakly fair execution of the kernel's program ends with its first result at the two-layer map of the
    pooled features, its second at the edge weights, and its arguments as launched. -/
theorem run : θ_run defs (onTc (τ := τ) (main (F := Ideal))) ⟨m, fun _ => 0, ρ⟩ fun r => ∀ c : Dev nD,
      r.2.mem ((c : Thread nD τ).loc main_v21)
        = mlp (poolG (patches (img m c))) (m ((c : Thread nD τ).loc main_arg1)) (m ((c : Thread nD τ).loc main_arg2))
            (m ((c : Thread nD τ).loc main_arg3)) (m ((c : Thread nD τ).loc main_arg4))
      ∧ r.2.mem ((c : Thread nD τ).loc main_v13_1) = adjG (patches (img m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v21 (Pipeline.mem_restRefs_of main_v21 (by decide) (by decide))).trans (tail_logits m c),
      ((h c).1 3).trans (final_adj m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelValue

end
-- ==== Proof.RefSide.lean ====
/-
  The reference, read at an index: its edge weights and its pooled features are the whole-array functions of
  the specification, applied to its patch array.

  The reference cuts each image into 196 patches of 4 pixels (a reshape, a transpose, a reshape: the array P below,
  never opened here), takes cosines, divides each patch's vector by its length plus ε, contracts over the 4 pixels,
  squares, thresholds by nested choices and clears the diagonal; the pooled feature is the sum over the patches
  divided by 196. Every step is read at an index (b, n, ·) of image b; a sum that starts from the zero float is the
  plain sum.
-/
import proofs.«108342_j65481071404068_2_alg».proof.Proof.Gen.ReferenceIdeal.Read
import proofs.«108342_j65481071404068_2_alg».proof.Proof.Spec

noncomputable section

open scoped BigOperators

namespace Cert.RefSide

open Cert.ReferenceIdeal Cert.ReferenceIdeal.Read Idealize.ShloMosaic Idealize.ShloMosaic.ValueIdx Cert.Spec

variable (x0 : (⟨S4096x1x28x28, .f32⟩ : BufTy).Contents (Elt Ideal))

/-- The reference's patch array. -/
abbrev patches : S4096x196x4.Idx → EReal := val_main_v3 (F := Ideal) x0

/-! ## The composed index functions at coordinates -/

theorem idx_sumsq (b : Fin 4096) (n : Fin 196) (u : Fin 1) (k : Fin 4) :
    idx_main_call0_v1 (idx_main_call0_v2 (ix3 b n u)) k = ix3 b n k :=
  funext fun a => Fin.ext (by match a with | ⟨0, _⟩ => rfl | ⟨1, _⟩ => rfl | ⟨2, _⟩ => rfl)

theorem idx_keep (b : Fin 4096) (n : Fin 196) (d : Fin 4) :
    idx_main_v8 (ix3 b n d) = ix3 b n (0 : Fin 1) :=
  funext fun a => Fin.ext (by match a with | ⟨0, _⟩ => rfl | ⟨1, _⟩ => rfl | ⟨2, _⟩ => rfl)

theorem idx_lhs (b : Fin 4096) (n m : Fin 196) (k : Fin 4) :
    lidx_main_v10 (ix3 b n m) k = ix3 b n k :=
  funext fun a => Fin.ext (by match a with | ⟨0, _⟩ => rfl | ⟨1, _⟩ => rfl | ⟨2, _⟩ => rfl)

theorem idx_rhs (b : Fin 4096) (n m : Fin 196) (k : Fin 4) :
    ridx_main_v10 (ix3 b n m) k = ix3 b m k :=
  funext fun a => Fin.ext (by match a with | ⟨0, _⟩ => rfl | ⟨1, _⟩ => rfl | ⟨2, _⟩ => rfl)

theorem idx_mean (b : Fin 4096) (d : Fin 4) (k : Fin 196) :
    idx_main_v24 (ix2 b d) k = ix3 b k d :=
  funext fun a => Fin.ext (by match a with | ⟨0, _⟩ => rfl | ⟨1, _⟩ => rfl | ⟨2, _⟩ => rfl)

/-! ## The stages at coordinates -/

/-- The cosine stage is the feature. -/
theorem feat_eq (b : Fin 4096) (n : Fin 196) (d : Fin 4) :
    val_main_v4 (F := Ideal) x0 (ix3 b n d) = feat (row (patches x0) b) n d := rfl

/-- The norm stage plus ε is the length. -/
theorem len_eq (b : Fin 4096) (n : Fin 196) (u : Fin 1) :
    val_main_v7 (F := Ideal) x0 (ix3 b n u) = len (row (patches x0) b) n := by
  rw [val_main_v7_apply, val_main_v5_apply, val_main_call0_v2_apply, val_main_call0_v1_apply, val_main_v6_apply,
    val_main_cst_apply, val_main_call0_cst_apply]
  simp only [idx_sumsq, val_main_call0_v0_apply, feat_eq]
  show Ideal.sqrt (Ideal.ofBits .f32 0x00000000#32 + _) + _ = _
  rw [Ideal.ofBits_zero_f32, zero_add]
  rfl

/-- The division stage is the scaled feature. -/
theorem dirn_eq (b : Fin 4096) (n : Fin 196) (d : Fin 4) :
    val_main_v9 (F := Ideal) x0 (ix3 b n d) = dirn (row (patches x0) b) n d := by
  rw [val_main_v9_apply, val_main_v8_apply, idx_keep, len_eq, feat_eq]
  rfl

/-- The squared contraction is the similarity. -/
theorem fid_eq (b : Fin 4096) (n m : Fin 196) :
    val_main_v11 (F := Ideal) x0 (ix3 b n m) = fid (row (patches x0) b) n m := by
  rw [val_main_v11_apply, val_main_v10_apply]
  simp only [idx_lhs, idx_rhs, dirn_eq]
  rfl

/-- The nested choices with the diagonal cleared are the edge weight. -/
theorem adj_eq (b : Fin 4096) (n m : Fin 196) :
    val_main_v23 (F := Ideal) x0 (ix3 b n m) = adj (row (patches x0) b) n m := by
  rw [val_main_v23_apply, val_main_call3_v0_apply, val_main_v22_apply, val_main_v21_apply, val_main_v18_apply,
    val_main_v20_apply, val_main_c_apply, val_main_v19_apply, val_main_call3_v1_apply, val_main_cst_5_apply,
    val_main_v17_apply, val_main_v13_apply, val_main_v12_apply, val_main_cst_0_apply, val_main_call2_v0_apply,
    val_main_cst_4_apply, val_main_v16_apply, val_main_v15_apply, val_main_v14_apply, val_main_cst_1_apply,
    val_main_call1_v0_apply, val_main_cst_2_apply, val_main_call1_v1_apply, val_main_cst_3_apply, fid_eq]
  rfl

/-- The sum over the patches divided by 196 is the pooled feature. -/
theorem pool_eq (b : Fin 4096) (d : Fin 4) :
    val_main_v26 (F := Ideal) x0 (ix2 b d) = pool (row (patches x0) b) d := by
  rw [val_main_v26_apply, val_main_v24_apply, val_main_v25_apply, val_main_cst_7_apply, val_main_cst_6_apply]
  simp only [idx_mean, feat_eq]
  show Ideal.div (Ideal.ofBits .f32 0x00000000#32 + _) _ = _
  rw [Ideal.ofBits_zero_f32, zero_add]
  rfl

/-! ## The whole arrays -/

/-- The reference's second result is the edge-weight array of its patches. -/
theorem adj_array : val_main_v23 (F := Ideal) x0 = adjG (patches x0) := by
  funext i
  obtain ⟨b, n, m, rfl⟩ : ∃ (b : Fin 4096) (n m : Fin 196), i = ix3 b n m := ⟨i 0, i 1, i 2, eq_ix3 i⟩
  exact adj_eq x0 b n m

/-- The reference's pooled array is the pooled-feature array of its patches. -/
theorem pool_array : val_main_v26 (F := Ideal) x0 = poolG (patches x0) := by
  funext i
  obtain ⟨b, d, rfl⟩ : ∃ (b : Fin 4096) (d : Fin 4), i = ix2 b d := ⟨i 0, i 1, eq_ix2 i⟩
  exact pool_eq x0 b d

end Cert.RefSide

end
-- ==== Proof.lean ====
/-
  Patch-graph edge weights and a two-layer map of pooled patch features: a tiled kernel against its array reference.

  Both programs cut each of 4096 images (28 × 28) into 196 patches of 4 pixels by the same four layout operations,
  take cosines c, scale each patch's 4-vector by 1 / (|c| + ε), and form for every pair of patches the squared inner
  product fid of the scaled vectors. The edge weight of a pair is 0 on the diagonal, else 1 if fid ≥ θ, else 1/2 if
  fid ≥ 1/2, else 0 (θ the float nearest 0.8). The reference says so with nested choices; the kernel computes
  (1/2 · [fid ≥ 1/2] + 1/2 · [fid ≥ θ]) · (1 − [diagonal]) — equal for every extended real fid because 1/2 ≤ θ
  (Proof/LibEdgeWeight.lean; no finiteness is used anywhere). The second result is ((mean_n c) · W1 + b1) · W2 + b2; the
  kernel produces the mean, and the same host lines finish it in both programs.

  The kernel works on the transposed layout (image, pixel, patch) in 128 blocks of 32 images; its sums over pixels,
  over patches, and its per-image matrix product are the plain sums of the specification (Proof/KernelBody.lean), its
  blocks tile the result arrays (Proof/KernelValue.lean), and the reference read index by index is the same
  specification (Proof/RefSide.lean). The specification itself is Proof/Spec.lean.
-/
import proofs.«108342_j65481071404068_2_alg».proof.Defs
import proofs.«108342_j65481071404068_2_alg».proof.Proof.Gen.Kernel
import proofs.«108342_j65481071404068_2_alg».proof.Proof.Gen.Kernel.Skeleton
import proofs.«108342_j65481071404068_2_alg».proof.Proof.Gen.Kernel.Launch
import proofs.«108342_j65481071404068_2_alg».proof.Proof.Gen.Kernel.Points
import proofs.«108342_j65481071404068_2_alg».proof.Proof.Gen.Kernel.Frame
import proofs.«108342_j65481071404068_2_alg».proof.Proof.Gen.KernelIdeal
import proofs.«108342_j65481071404068_2_alg».proof.Proof.Gen.KernelIdeal.Skeleton
import proofs.«108342_j65481071404068_2_alg».proof.Proof.Gen.KernelIdeal.Launch
import proofs.«108342_j65481071404068_2_alg».proof.Proof.Gen.KernelIdeal.Points
import proofs.«108342_j65481071404068_2_alg».proof.Proof.Gen.KernelIdeal.Frame
import proofs.«108342_j65481071404068_2_alg».proof.Proof.Gen.ReferenceIdeal
import proofs.«108342_j65481071404068_2_alg».proof.Proof.Gen.Pre_finite_inputs
import proofs.«108342_j65481071404068_2_alg».proof.Proof.Gen.ReferenceIdeal.Run
import proofs.«108342_j65481071404068_2_alg».proof.Proof.Gen.ReferenceIdeal.Read
import proofs.«108342_j65481071404068_2_alg».proof.Proof.KernelValue
import proofs.«108342_j65481071404068_2_alg».proof.Proof.RefSide
import Idealize.ShloMosaic.Adequacy
import Idealize.ShloMosaic.Init

noncomputable section

namespace Cert.Proof

open Idealize.ShloMosaic Idealize.ShloMosaic.TcCoe Idealize.SL.Sem

/-! ## The reference's two results as the kernel's functions of the image array -/

/-- The reference's edge weights are the specification's, of the patch array the kernel's host lines build (the two
    programs' patch arrays are the same four layout operations). -/
theorem ref_adj (x0 : FVec Ideal Cert.ReferenceIdeal.S4096x1x28x28 .f32) :
    Cert.ReferenceIdeal.Read.val_main_v23 (F := Ideal) x0 = Cert.Spec.adjG (Cert.KernelEntry.patches x0) := by
  rw [Cert.RefSide.adj_array]
  rfl

/-- The reference's first result is the two-layer map of the specification's pooled features: its last eight host
    operations are that map, applied to its own mean. -/
theorem ref_logits (x0 : FVec Ideal Cert.ReferenceIdeal.S4096x1x28x28 .f32) (x1 : FVec Ideal Cert.ReferenceIdeal.S4x32 .f32)
    (x2 : FVec Ideal Cert.ReferenceIdeal.S32 .f32) (x3 : FVec Ideal Cert.ReferenceIdeal.S32x10 .f32)
    (x4 : FVec Ideal Cert.ReferenceIdeal.S10 .f32) :
    Cert.ReferenceIdeal.Read.val_main_v34 (F := Ideal) x0 x1 x2 x3 x4
      = Cert.KernelValue.mlp (Cert.Spec.poolG (Cert.KernelEntry.patches x0)) x1 x2 x3 x4 := by
  have h : Cert.ReferenceIdeal.Read.val_main_v34 (F := Ideal) x0 x1 x2 x3 x4
      = Cert.KernelValue.mlp (Cert.ReferenceIdeal.Read.val_main_v26 (F := Ideal) x0) x1 x2 x3 x4 := rfl
  rw [h, Cert.RefSide.pool_array]
  rfl

/-! ## The claims -/

theorem frame_kernel : Cert.frame_Kernel := fun m ρ _ => Cert.Kernel.Gen.frame m ρ

theorem frame_ideal : Cert.frame_KernelIdeal := fun m ρ _ => Cert.KernelIdeal.Gen.frame m ρ

/-- The reference's frame is its run with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the extended reals: nothing was rewritten. -/
theorem preserves : Cert.preserves_Kernel_KernelIdeal := trivial

/-- Both runs end with the two-layer map of the pooled features and with the edge weights, of image arrays that agree. -/
theorem algebraic : Cert.algebraic_KernelIdeal_ReferenceIdeal := by
  intro m ρ m' ρ' _ hagree
  refine ⟨_, _, Cert.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, ref_logits, (hagree c).1, (hagree c).2.1, (hagree c).2.2.1,
      (hagree c).2.2.2.1, (hagree c).2.2.2.2]
  · rw [Cert.ReferenceIdeal.Read.val_main_v23_eq, ref_adj, (hagree c).1]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
